-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x1024 : Shape := ⟨3, ![8, 256, 1024]⟩
abbrev S8x65x320 : Shape := ⟨3, ![8, 65, 320]⟩
abbrev S1344x640 : Shape := ⟨2, ![1344, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S8x256x1024 : S_.BroadcastsInDim S8x256x1024 (![] : Fin 0 → Fin S8x256x1024.rank)
  reducesTo_S8x256x1024_S_d0_1_2 : S8x256x1024.ReducesTo [0, 1, 2] S_
  h_S_ : 0 < S_.numel
  bcast_S_S8x65x320 : S_.BroadcastsInDim S8x65x320 (![] : Fin 0 → Fin S8x65x320.rank)
  reducesTo_S8x65x320_S_d0_1_2 : S8x65x320.ReducesTo [0, 1, 2] S_
  bcast_S_S1344x640 : S_.BroadcastsInDim S1344x640 (![] : Fin 0 → Fin S1344x640.rank)
  reducesTo_S1344x640_S_d0_1 : S1344x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S640x1024 .f32) (main_arg5 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x1024 .f32 := Host.absf main_arg4
  let main_cst_6 : FVec F S_ .f32 := constant S_ .f32 0x7F800000#32
  let main_v20 : FVec F S640x1024 .f32 := broadcastInDim S640x1024 ![] bcast_S_S640x1024 main_cst_6
  let main_v21 : IVec S640x1024 1 := cmpf .olt main_v19 main_v20
  let main_c_7 : IVec S_ 1 := constantI S_ 1 1#1
  let main_v22 : IVec S_ 1 := (fun x v => Host.reduce IntOp.andi x v reducesTo_S640x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x256x1024 .f32) (main_arg1 : FVec F S8x65x320 .f32) (main_arg2 : FVec F S1344x640 .f32) (main_arg3 : FVec F S640 .f32) (main_arg4 : FVec F S640x1024 .f32) (main_arg5 : FVec F S1024 .f32) : IVec S_ 1 :=
  let main_v0 : FVec F S8x256x1024 .f32 := Host.absf main_arg0
  let main_cst : FVec F S_ .f32 := constant S_ .f32 0x7F800000#32
  let main_v1 : FVec F S8x256x1024 .f32 := broadcastInDim S8x256x1024 ![] bcast_S_S8x256x1024 main_cst
  let main_v2 : IVec S8x256x1024 1 := cmpf .olt main_v0 main_v1
  let main_c : IVec S_ 1 := constantI S_ 1 1#1
  let main_v3 : IVec S_ 1 := (fun x v => Host.reduce IntOp.andi x v reducesTo_S8x256x1024_S_d0_1_2 h_S_) main_v2 main_c
  let main_v4 : FVec F S8x65x320 .f32 := Host.absf main_arg1
  let main_cst_0 : FVec F S_ .f32 := constant S_ .f32 0x7F800000#32
  let main_v5 : FVec F S8x65x320 .f32 := broadcastInDim S8x65x320 ![] bcast_S_S8x65x320 main_cst_0
  let main_v6 : IVec S8x65x320 1 := cmpf .olt main_v4 main_v5
  let main_c_1 : IVec S_ 1 := constantI S_ 1 1#1
  let main_v7 : IVec S_ 1 := (fun x v => Host.reduce IntOp.andi x v reducesTo_S8x65x320_S_d0_1_2 h_S_) main_v6 main_c_1
  let main_v8 : IVec S_ 1 := andi main_v3 main_v7
  let main_v9 : FVec F S1344x640 .f32 := Host.absf main_arg2
  let main_cst_2 : FVec F S_ .f32 := constant S_ .f32 0x7F800000#32
  let main_v10 : FVec F S1344x640 .f32 := broadcastInDim S1344x640 ![] bcast_S_S1344x640 main_cst_2
  let main_v11 : IVec S1344x640 1 := cmpf .olt main_v9 main_v10
  let main_c_3 : IVec S_ 1 := constantI S_ 1 1#1
  let main_v12 : IVec S_ 1 := (fun x v => Host.reduce IntOp.andi x v reducesTo_S1344x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_v13 main_v16
-- ==== Kernel.lean ====
abbrev S8x256x1024 : Shape := ⟨3, ![8, 256, 1024]⟩
abbrev S8x65x320 : Shape := ⟨3, ![8, 65, 320]⟩
abbrev S1344x640 : Shape := ⟨2, ![1344, 640]⟩
abbrev S640 : Shape := ⟨1, ![640]⟩
abbrev S640x1024 : Shape := ⟨2, ![640, 1024]⟩
abbrev S1024 : Shape := ⟨1, ![1024]⟩
abbrev S1024x640 : Shape := ⟨2, ![1024, 640]⟩
abbrev S320x640 : Shape := ⟨2, ![320, 640]⟩
abbrev S8x256x65x1024 : Shape := ⟨4, ![8, 256, 65, 1024]⟩
abbrev S1x32x1024 : Shape := ⟨3, ![1, 32, 1024]⟩
abbrev S1x65x320 : Shape := ⟨3, ![1, 65, 320]⟩
abbrev S1x32x65x1024 : Shape := ⟨4, ![1, 32, 65, 1024]⟩
abbrev S72x640 : Shape := ⟨2, ![72, 640]⟩
abbrev S65x320 : Shape := ⟨2, ![65, 320]⟩
abbrev S65x640 : Shape := ⟨2, ![65, 640]⟩
abbrev S32x1024 : Shape := ⟨2, ![32, 1024]⟩
abbrev S32x640 : Shape := ⟨2, ![32, 640]⟩
abbrev S32x1x640 : Shape := ⟨3, ![32, 1, 640]⟩
abbrev S1x72x640 : Shape := ⟨3, ![1, 72, 640]⟩
abbrev S32x72x640 : Shape := ⟨3, ![32, 72, 640]⟩
abbrev S1x1x640 : Shape := ⟨3, ![1, 1, 640]⟩
abbrev S2304x640 : Shape := ⟨2, ![2304, 640]⟩
abbrev S2304x1024 : Shape := ⟨2, ![2304, 1024]⟩
abbrev S1x1024 : Shape := ⟨2, ![1, 1024]⟩
abbrev S32x72x1024 : Shape := ⟨3, ![32, 72, 1024]⟩
abbrev S32x65x1024 : Shape := ⟨3, ![32, 65, 1024]⟩

abbrev nBuf : Space → Nat
  | .hbm => 12
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S8x65x320, .f32⟩
  | .hbm, ⟨2, _⟩ => ⟨S1344x640, .f32⟩
  | .hbm, ⟨3, _⟩ => ⟨S640, .f32⟩
  | .hbm, ⟨4, _⟩ => ⟨S640x1024, .f32⟩
  | .hbm, ⟨5, _⟩ => ⟨S1024, .f32⟩
  | .hbm, ⟨6, _⟩ => ⟨S1024x640, .f32⟩
  | .hbm, ⟨7, _⟩ => ⟨S1024x640, .bf16⟩
  | .hbm, ⟨8, _⟩ => ⟨S320x640, .f32⟩
  | .hbm, ⟨9, _⟩ => ⟨S320x640, .bf16⟩
  | .hbm, ⟨10, _⟩ => ⟨S640x1024, .bf16⟩
  | .hbm, ⟨11, _⟩ => ⟨S8x256x65x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x65x320, .f32⟩
  | .local _ .vmem, ⟨3, _⟩ => ⟨S1x65x320, .f32⟩
  | .local _ .vmem, ⟨4, _⟩ => ⟨S1024x640, .bf16⟩
  | .local _ .vmem, ⟨5, _⟩ => ⟨S320x640, .bf16⟩
  | .local _ .vmem, ⟨6, _⟩ => ⟨S640, .f32⟩
  | .local _ .vmem, ⟨7, _⟩ => ⟨S640x1024, .bf16⟩
  | .local _ .vmem, ⟨8, _⟩ => ⟨S1024, .f32⟩
  | .local _ .vmem, ⟨9, _⟩ => ⟨S1x32x65x1024, .f32⟩
  | .local _ .vmem, ⟨10, _⟩ => ⟨S1x32x65x1024, .f32⟩
  | .local _ .vmem, ⟨11, _⟩ => ⟨S72x640, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x65x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S320x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S640x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x65x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S1344x640_S1024x640_0_0 : S1344x640.Slices ![0, 0] S1024x640
  bitsLt_bf16_f32 : FTy.bits .bf16 < FTy.bits .f32
  slices_S1344x640_S320x640_1024_0 : S1344x640.Slices ![1024, 0] S320x640
  inb_S72x640_S72x640_0_0 : ∀ a, (![0, 0] : Fin 2 → Nat) a + S72x640.size a ≤ S72x640.size a
  h_S72x640 : 0 < S72x640.numel
  shapeCasts_S72x640_S72x640 : S72x640.ShapeCasts S72x640
  inb_S1x65x320_S1x65x320_0_0_0 : ∀ a, (![0, 0, 0] : Fin 3 → Nat) a + S1x65x320.size a ≤ S1x65x320.size a
  h_S1x65x320 : 0 < S1x65x320.numel
  shapeCasts_S1x65x320_S65x320 : S1x65x320.ShapeCasts S65x320
  inb_S320x640_S320x640_0_0 : ∀ a, (![0, 0] : Fin 2 → Nat) a + S320x640.size a ≤ S320x640.size a
  h_S320x640 : 0 < S320x640.numel
  shapeCasts_S320x640_S320x640 : S320x640.ShapeCasts S320x640
  inb_S72x640_S65x640_0_0 : ∀ a, (![0, 0] : Fin 2 → Nat) a + S65x640.size a ≤ S72x640.size a
  h_S65x640 : 0 < S65x640.numel
  shapeCasts_S65x640_S65x640 : S65x640.ShapeCasts S65x640
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  inb_S1024x640_S1024x640_0_0 : ∀ a, (![0, 0] : Fin 2 → Nat) a + S1024x640.size a ≤ S1024x640.size a
  h_S1024x640 : 0 < S1024x640.numel
  shapeCasts_S1024x640_S1024x640 : S1024x640.ShapeCasts S1024x640
  inb_S640_S640_0 : ∀ a, (![0] : Fin 1 → Nat) a + S640.size a ≤ S640.size a
  h_S640 : 0 < S640.numel
  shapeCasts_S32x640_S32x1x640 : S32x640.ShapeCasts S32x1x640
  shapeCasts_S72x640_S1x72x640 : S72x640.ShapeCasts S1x72x640
  broadcasts_S32x1x640_S32x72x640 : S32x1x640.Broadcasts S32x72x640
  broadcasts_S1x72x640_S32x72x640 : S1x72x640.Broadcasts S32x72x640
  shapeCasts_S640_S1x1x640 : S640.ShapeCasts S1x1x640
  broadcasts_S1x1x640_S32x72x640 : S1x1x640.Broadcasts S32x72x640
  shapeCasts_S32x72x640_S2304x640 : S32x72x640.ShapeCasts S2304x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2304x1024 : S1x1024.Broadcasts S2304x1024
  shapeCasts_S2304x1024_S32x72x1024 : S2304x1024.ShapeCasts S32x72x1024
  slices_S32x72x1024_o0_0_0_S32x65x1024 : S32x72x1024.Slices ![0, 0, 0] S32x65x1024
  inb_S1x32x65x1024_S1x32x65x1024_0_0_0_0 : ∀ a, (![0, 0, 0, 0] : Fin 4 → Nat) a + S1x32x65x1024.size a ≤ S1x32x65x1024.size a
  h_S1x32x65x1024 : 0 < S1x32x65x1024.numel
  shapeCasts_S1x32x65x1024_S32x65x1024 : S1x32x65x1024.ShapeCasts S32x65x1024
  shapeCasts_S32x65x1024_S1x32x65x1024 : S32x65x1024.ShapeCasts S1x32x65x1024
  dot_S65x320_S320x640_S65x640_1_0_0_1_n_n_wf : DotDims.WF S65x320 S320x640 S65x640 [1] [0] [0] [1] [] []
  dot_S32x1024_S1024x640_S32x640_1_0_0_1_n_n_wf : DotDims.WF S32x1024 S1024x640 S32x640 [1] [0] [0] [1] [] []
  dot_S2304x640_S640x1024_S2304x1024_1_0_0_1_n_n_wf : DotDims.WF S2304x640 S640x1024 S2304x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x1024.size a ≤ S8x256x1024.size a
  hwx0_0 : ∀ i : grid0.Coords, EltTy.bits .f32 = 32 ∨ (Rect.block (s := S8x256x1024) S1x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65x320.size a ≤ S8x65x320.size a
  hwx0_1 : ∀ i : grid0.Coords, EltTy.bits .f32 = 32 ∨ (Rect.block (s := S8x65x320) S1x65x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x640.size a ≤ S1024x640.size a
  hwx0_2 : ∀ i : grid0.Coords, EltTy.bits .bf16 = 32 ∨ (Rect.block (s := S1024x640) S1024x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x640.size a ≤ S320x640.size a
  hwx0_3 : ∀ i : grid0.Coords, EltTy.bits .bf16 = 32 ∨ (Rect.block (s := S320x640) S320x640.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S640.size a ≤ S640.size a
  hwx0_4 : ∀ i : grid0.Coords, EltTy.bits .f32 = 32 ∨ (Rect.block (s := S640) S640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x1024.size a ≤ S640x1024.size a
  hwx0_5 : ∀ i : grid0.Coords, EltTy.bits .bf16 = 32 ∨ (Rect.block (s := S640x1024) S640x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x65x1024.size a ≤ S8x256x65x1024.size a
  hwx0_7 : ∀ i : grid0.Coords, EltTy.bits .f32 = 32 ∨ (Rect.block (s := S8x256x65x1024) S1x32x65x1024.size (cc0_transform_7 i) (hinb0_7 i)).WholeWords (EltTy.packing .f32)

variable [Facts₀]

def dot_S65x320_S320x640_S65x640_1_0_0_1_n_n : DotDims S65x320 S320x640 S65x640 where
  lhsContracting := [1]
  rhsContracting := [0]
  lhsNonContracting := [0]
  rhsNonContracting := [1]
  lhsBatch := []
  rhsBatch := []
  wf := dot_S65x320_S320x640_S65x640_1_0_0_1_n_n_wf
def dot_S32x1024_S1024x640_S32x640_1_0_0_1_n_n : DotDims S32x1024 S1024x640 S32x640 where
  lhsContracting := [1]
  rhsContracting := [0]
  lhsNonContracting := [0]
  rhsNonContracting := [1]
  lhsBatch := []
  rhsBatch := []
  wf := dot_S32x1024_S1024x640_S32x640_1_0_0_1_n_n_wf
def dot_S2304x640_S640x1024_S2304x1024_1_0_0_1_n_n : DotDims S2304x640 S640x1024 S2304x1024 where
  lhsContracting := [1]
  rhsContracting := [0]
  lhsNonContracting := [0]
  rhsNonContracting := [1]
  lhsBatch := []
  rhsBatch := []
  wf := dot_S2304x640_S640x1024_S2304x1024_1_0_0_1_n_n_wf

abbrev win0_0 : Pipeline.Window sig grid0 :=
  Pipeline.Window.ofSpec (Memref.whole main_arg0) S1x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x65x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S320x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S640x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x32x65x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x1024 : Shape := ⟨3, ![8, 256, 1024]⟩
abbrev S8x65x320 : Shape := ⟨3, ![8, 65, 320]⟩
abbrev S1344x640 : Shape := ⟨2, ![1344, 640]⟩
abbrev S640 : Shape := ⟨1, ![640]⟩
abbrev S640x1024 : Shape := ⟨2, ![640, 1024]⟩
abbrev S1024 : Shape := ⟨1, ![1024]⟩
abbrev S1024x640 : Shape := ⟨2, ![1024, 640]⟩
abbrev S320x640 : Shape := ⟨2, ![320, 640]⟩
abbrev S8x256x640 : Shape := ⟨3, ![8, 256, 640]⟩
abbrev S8x65x640 : Shape := ⟨3, ![8, 65, 640]⟩
abbrev S8x256x1x640 : Shape := ⟨4, ![8, 256, 1, 640]⟩
abbrev S8x1x65x640 : Shape := ⟨4, ![8, 1, 65, 640]⟩
abbrev S8x256x65x640 : Shape := ⟨4, ![8, 256, 65, 640]⟩
abbrev S1x1x1x640 : Shape := ⟨4, ![1, 1, 1, 640]⟩
abbrev S_ : Shape := ⟨0, ![]⟩
abbrev S8x256x65x1024 : Shape := ⟨4, ![8, 256, 65, 1024]⟩
abbrev S1x1x1x1024 : Shape := ⟨4, ![1, 1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x65x320, .f32⟩
  | .hbm, ⟨2, _⟩ => ⟨S1344x640, .f32⟩
  | .hbm, ⟨3, _⟩ => ⟨S640, .f32⟩
  | .hbm, ⟨4, _⟩ => ⟨S640x1024, .f32⟩
  | .hbm, ⟨5, _⟩ => ⟨S1024, .f32⟩
  | .hbm, ⟨6, _⟩ => ⟨S1024x640, .f32⟩
  | .hbm, ⟨7, _⟩ => ⟨S320x640, .f32⟩
  | .hbm, ⟨8, _⟩ => ⟨S8x256x640, .f32⟩
  | .hbm, ⟨9, _⟩ => ⟨S8x65x640, .f32⟩
  | .hbm, ⟨10, _⟩ => ⟨S8x256x1x640, .f32⟩
  | .hbm, ⟨11, _⟩ => ⟨S8x1x65x640, .f32⟩
  | .hbm, ⟨12, _⟩ => ⟨S8x256x65x640, .f32⟩
  | .hbm, ⟨13, _⟩ => ⟨S8x256x65x640, .f32⟩
  | .hbm, ⟨14, _⟩ => ⟨S8x256x65x640, .f32⟩
  | .hbm, ⟨15, _⟩ => ⟨S1x1x1x640, .f32⟩
  | .hbm, ⟨16, _⟩ => ⟨S8x256x65x640, .f32⟩
  | .hbm, ⟨17, _⟩ => ⟨S8x256x65x640, .f32⟩
  | .hbm, ⟨18, _⟩ => ⟨S_, .f32⟩
  | .hbm, ⟨19, _⟩ => ⟨S8x256x65x640, .f32⟩
  | .hbm, ⟨20, _⟩ => ⟨S8x256x65x640, .f32⟩
  | .hbm, ⟨21, _⟩ => ⟨S8x256x65x1024, .f32⟩
  | .hbm, ⟨22, _⟩ => ⟨S1x1x1x1024, .f32⟩
  | .hbm, ⟨23, _⟩ => ⟨S8x256x65x1024, .f32⟩
  | .hbm, ⟨24, _⟩ => ⟨S8x256x65x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  slices_S1344x640_S1024x640_0_0 : S1344x640.Slices ![0, 0] S1024x640
  slices_S1344x640_S320x640_1024_0 : S1344x640.Slices ![1024, 0] S320x640
  bcast_S8x256x640_S8x256x1x640_0_1_3 : S8x256x640.BroadcastsInDim S8x256x1x640 (![0, 1, 3] : Fin 3 → Fin S8x256x1x640.rank)
  bcast_S8x65x640_S8x1x65x640_0_2_3 : S8x65x640.BroadcastsInDim S8x1x65x640 (![0, 2, 3] : Fin 3 → Fin S8x1x65x640.rank)
  bcast_S8x256x1x640_S8x256x65x640_0_1_2_3 : S8x256x1x640.BroadcastsInDim S8x256x65x640 (![0, 1, 2, 3] : Fin 4 → Fin S8x256x65x640.rank)
  bcast_S8x1x65x640_S8x256x65x640_0_1_2_3 : S8x1x65x640.BroadcastsInDim S8x256x65x640 (![0, 1, 2, 3] : Fin 4 → Fin S8x256x65x640.rank)
  bcast_S640_S1x1x1x640_3 : S640.BroadcastsInDim S1x1x1x640 (![3] : Fin 1 → Fin S1x1x1x640.rank)
  bcast_S1x1x1x640_S8x256x65x640_0_1_2_3 : S1x1x1x640.BroadcastsInDim S8x256x65x640 (![0, 1, 2, 3] : Fin 4 → Fin S8x256x65x640.rank)
  bcast_S_S8x256x65x640 : S_.BroadcastsInDim S8x256x65x640 (![] : Fin 0 → Fin S8x256x65x640.rank)
  bcast_S1024_S1x1x1x1024_3 : S1024.BroadcastsInDim S1x1x1x1024 (![3] : Fin 1 → Fin S1x1x1x1024.rank)
  bcast_S1x1x1x1024_S8x256x65x1024_0_1_2_3 : S1x1x1x1024.BroadcastsInDim S8x256x65x1024 (![0, 1, 2, 3] : Fin 4 → Fin S8x256x65x1024.rank)
  dot_S8x256x1024_S1024x640_S8x256x640_2_0_01_1_n_n_wf : DotDims.WF S8x256x1024 S1024x640 S8x256x640 [2] [0] [0, 1] [1] [] []
  dot_S8x65x320_S320x640_S8x65x640_2_0_01_1_n_n_wf : DotDims.WF S8x65x320 S320x640 S8x65x640 [2] [0] [0, 1] [1] [] []
  dot_S8x256x65x640_S640x1024_S8x256x65x1024_3_0_012_1_n_n_wf : DotDims.WF S8x256x65x640 S640x1024 S8x256x65x1024 [3] [0] [0, 1, 2] [1] [] []

variable [Facts₀]

def dot_S8x256x1024_S1024x640_S8x256x640_2_0_01_1_n_n : DotDims S8x256x1024 S1024x640 S8x256x640 where
  lhsContracting := [2]
  rhsContracting := [0]
  lhsNonContracting := [0, 1]
  rhsNonContracting := [1]
  lhsBatch := []
  rhsBatch := []
  wf := dot_S8x256x1024_S1024x640_S8x256x640_2_0_01_1_n_n_wf
def dot_S8x65x320_S320x640_S8x65x640_2_0_01_1_n_n : DotDims S8x65x320 S320x640 S8x65x640 where
  lhsContracting := [2]
  rhsContracting := [0]
  lhsNonContracting := [0, 1]
  rhsNonContracting := [1]
  lhsBatch := []
  rhsBatch := []
  wf := dot_S8x65x320_S320x640_S8x65x640_2_0_01_1_n_n_wf
def dot_S8x256x65x640_S640x1024_S8x256x65x1024_3_0_012_1_n_n : DotDims S8x256x65x640 S640x1024 S8x256x65x1024 where
  lhsContracting := [3]
  rhsContracting := [0]
  lhsNonContracting := [0, 1, 2]
  rhsNonContracting := [1]
  lhsBatch := []
  rhsBatch := []
  wf := dot_S8x256x65x640_S640x1024_S8x256x65x1024_3_0_012_1_n_n_wf

class Facts : Prop extends Facts₀ where

variable [Facts]
-- ==== Proof.Pieces.lean ====
/-
  What the body leaves behind at one grid point, as values.

  At the first point of a batch the body zeroes the 72 × 640 scratch, overwrites its rows 0 … 64 with the predictor
  projection of the batch's g block, and then computes the logits block from the scratch it has just written. At every
  other point it leaves the scratch alone and computes the logits block from what the point before left there. So:
  the first point leaves `seeded g_blk W1g` in the scratch and the logits of (f_blk, seeded …) in the output block; a
  later point leaves the scratch as it found it and the logits of (f_blk, that scratch). Row u < 65 of the seeded
  scratch is row u of the projection.
-/
import proofs.«148343_j28862180229192_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen Idealize.ShloMosaic.ValueIdx

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The scratch after a batch's first point: the zero fill, then rows 0 … 64 overwritten by the projection of the
    batch's g block (the later store wins where both wrote). -/
def seeded (x1 : Vec F S1x65x320 .f32) (x3 : Vec F S320x640 .bf16) : Vec F S72x640 .f32 :=
  View.canon [(⟨Rect.unit ![0, 0] S65x640.size inb_S72x640_S65x640_0_0, k0_pay2 x1 x3⟩ : View.Piece (Elt F) S72x640 .f32),
    ⟨Rect.unit ![0, 0] S72x640.size inb_S72x640_S72x640_0_0, k0_pay1⟩]

/-- Row u < 65 of the seeded scratch is row u of the projection. -/
theorem seeded_row (x1 : Vec F S1x65x320 .f32) (x3 : Vec F S320x640 .bf16) (u : Fin 65) (j : Fin 640) :
    seeded x1 x3 (ix2 (⟨u.val, by have := u.isLt; omega⟩ : Fin 72) j) = k0_pay2 x1 x3 (ix2 u j) := by
  have e : (Rect.unit (s := S72x640) ![0, 0] S65x640.size inb_S72x640_S65x640_0_0).emb (ix2 u j)
      = ix2 (⟨u.val, by have := u.isLt; omega⟩ : Fin 72) j := funext fun a => Fin.ext (by
    match a with
    | ⟨0, _⟩ => show 0 + 1 * u.val = u.val; omega
    | ⟨1, _⟩ => show 0 + 1 * j.val = j.val; omega)
  unfold seeded
  rw [← e]
  exact View.canon_cons_emb _ _ _ _

/-- A later point (not the first of its batch): the output block is the logits of the point's f block and the
    scratch as the point before left it. -/
theorem out_B (c : Dev nD) (i : grid0.Coords) (a2 : Memref sig .tc .vmem S1x32x1024 .f32) (h2 : a2.IsWhole) (a3 : Memref sig .tc .vmem S1x65x320 .f32) (h3 : a3.IsWhole) (a4 : Memref sig .tc .vmem S1024x640 .bf16) (h4 : a4.IsWhole) (a5 : Memref sig .tc .vmem S320x640 .bf16) (h5 : a5.IsWhole) (a6 : Memref sig .tc .vmem S640 .f32) (h6 : a6.IsWhole) (a7 : Memref sig .tc .vmem S640x1024 .bf16) (h7 : a7.IsWhole) (a8 : Memref sig .tc .vmem S1024 .f32) (h8 : a8.IsWhole) (a9 : Memref sig .tc .vmem S1x32x65x1024 .f32) (h9 : a9.IsWhole) (a10 : Memref sig .tc .vmem S72x640 .f32) (h10 : a10.IsWhole) (hc : ¬cond0_0 i) (x0 : Vec F S1x32x1024 .f32) (x1 : Vec F S1x65x320 .f32) (x2 : Vec F S1024x640 .bf16) (x3 : Vec F S320x640 .bf16) (x4 : Vec F S640 .f32) (x5 : Vec F S640x1024 .bf16) (x6 : Vec F S1024 .f32) (xs : Vec F S72x640 .f32) :
    out0_B_7 c i a2 h2 a3 h3 a4 h4 a5 h5 a6 h6 a7 h7 a8 h8 a9 h9 a10 h10 hc x0 x1 x2 x3 x4 x5 x6 xs = k0_pay3 x0 x2 xs x4 x5 x6 := by
  unfold out0_B_7
  rw [View.read_writes_eq_canon _ _ _ (cover0_B_7 c i a2 h2 a3 h3 a4 h4 a5 h5 a6 h6 a7 h7 a8 h8 a9 h9 a10 h10 hc x0 x1 x2 x3 x4 x5 x6 xs)]
  unfold kernelRun0_B
  dsimp only
  sl_unfold_words
  rw [View.canon_unit_zero hz4]
  simp only [View.readAt_eq_ld, h2.read_unread, h4.read_unread, h6.read_unread, h7.read_unread, h8.read_unread, h10.read_unread,
    View.ld_unit_zero (S := S1x32x1024) hz3, View.ld_unit_zero (S := S1024x640) hz2, View.ld_unit_zero (S := S72x640) hz2,
    View.ld_unit_zero (S := S640) hz1, View.ld_unit_zero (S := S640x1024) hz2, View.ld_unit_zero (S := S1024) hz1]

/-- The first point of a batch: the scratch is left seeded. -/
theorem sout_A (c : Dev nD) (i : grid0.Coords) (a2 : Memref sig .tc .vmem S1x32x1024 .f32) (h2 : a2.IsWhole) (a3 : Memref sig .tc .vmem S1x65x320 .f32) (h3 : a3.IsWhole) (a4 : Memref sig .tc .vmem S1024x640 .bf16) (h4 : a4.IsWhole) (a5 : Memref sig .tc .vmem S320x640 .bf16) (h5 : a5.IsWhole) (a6 : Memref sig .tc .vmem S640 .f32) (h6 : a6.IsWhole) (a7 : Memref sig .tc .vmem S640x1024 .bf16) (h7 : a7.IsWhole) (a8 : Memref sig .tc .vmem S1024 .f32) (h8 : a8.IsWhole) (a9 : Memref sig .tc .vmem S1x32x65x1024 .f32) (h9 : a9.IsWhole) (a10 : Memref sig .tc .vmem S72x640 .f32) (h10 : a10.IsWhole) (hc : cond0_0 i) (x0 : Vec F S1x32x1024 .f32) (x1 : Vec F S1x65x320 .f32) (x2 : Vec F S1024x640 .bf16) (x3 : Vec F S320x640 .bf16) (x4 : Vec F S640 .f32) (x5 : Vec F S640x1024 .bf16) (x6 : Vec F S1024 .f32) :
    sout0_A_0 c i a2 h2 a3 h3 a4 h4 a5 h5 a6 h6 a7 h7 a8 h8 a9 h9 a10 h10 hc x0 x1 x2 x3 x4 x5 x6 = seeded x1 x3 := by
  unfold sout0_A_0
  rw [View.read_writes_eq_canon _ _ _ (scover0_A_0 c i a2 h2 a3 h3 a4 h4 a5 h5 a6 h6 a7 h7 a8 h8 a9 h9 a10 h10 hc x0 x1 x2 x3 x4 x5 x6)]
  unfold kernelRun0_A
  dsimp only
  sl_unfold_words
  simp only [View.readAt_eq_ld, h3.read_unread, h5.read_unread,
    View.ld_unit_zero (S := S1x65x320) hz3, View.ld_unit_zero (S := S320x640) hz2]
  rfl

/-- The first point of a batch: the output block is the logits of the point's f block and the seeded scratch. -/
theorem out_A (c : Dev nD) (i : grid0.Coords) (a2 : Memref sig .tc .vmem S1x32x1024 .f32) (h2 : a2.IsWhole) (a3 : Memref sig .tc .vmem S1x65x320 .f32) (h3 : a3.IsWhole) (a4 : Memref sig .tc .vmem S1024x640 .bf16) (h4 : a4.IsWhole) (a5 : Memref sig .tc .vmem S320x640 .bf16) (h5 : a5.IsWhole) (a6 : Memref sig .tc .vmem S640 .f32) (h6 : a6.IsWhole) (a7 : Memref sig .tc .vmem S640x1024 .bf16) (h7 : a7.IsWhole) (a8 : Memref sig .tc .vmem S1024 .f32) (h8 : a8.IsWhole) (a9 : Memref sig .tc .vmem S1x32x65x1024 .f32) (h9 : a9.IsWhole) (a10 : Memref sig .tc .vmem S72x640 .f32) (h10 : a10.IsWhole) (hc : cond0_0 i) (x0 : Vec F S1x32x1024 .f32) (x1 : Vec F S1x65x320 .f32) (x2 : Vec F S1024x640 .bf16) (x3 : Vec F S320x640 .bf16) (x4 : Vec F S640 .f32) (x5 : Vec F S640x1024 .bf16) (x6 : Vec F S1024 .f32) :
    out0_A_7 c i a2 h2 a3 h3 a4 h4 a5 h5 a6 h6 a7 h7 a8 h8 a9 h9 a10 h10 hc x0 x1 x2 x3 x4 x5 x6 = k0_pay3 x0 x2 (seeded x1 x3) x4 x5 x6 := by
  unfold out0_A_7
  rw [View.read_writes_eq_canon _ _ _ (cover0_A_7 c i a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz4]
  simp only [View.readAt_eq_ld, h2.read_unread, h3.read_unread, h4.read_unread, h5.read_unread, h6.read_unread, h7.read_unread,
    h8.read_unread,
    View.ld_unit_zero (S := S1x32x1024) hz3, View.ld_unit_zero (S := S1024x640) hz2, View.ld_unit_zero (S := S1x65x320) hz3,
    View.ld_unit_zero (S := S320x640) hz2,
    View.ld_unit_zero (S := S640) hz1, View.ld_unit_zero (S := S640x1024) hz2, View.ld_unit_zero (S := S1024) hz1]
  rw [View.readCov_eq_canon_ld _ _ _ (fun y => ⟨_, List.mem_cons_of_mem _ (List.mem_singleton_self _),
    View.mem_set_unit_zero hz2 inb_S72x640_S72x640_0_0 y⟩), View.ld_unit_zero (S := S72x640) hz2]
  rfl

end Cert.KernelIdeal.Pieces

end
-- ==== Proof.LibPlainDot.lean ====
/-
  A plain matrix product [M, K] · [K, N] (the dimension numbers that contract the left operand's columns with the
  right operand's rows, no batch axis) read at a single entry on the extended reals: entry (p, q) is the sum over
  k of x (p, k) · y (k, q). This holds of the vector unit's product into a zero accumulator and of the host's
  dot_general alike, because at the ideal values both are the exact sum over the contraction index, and for
  these dimension numbers that index is one coordinate k < K.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : ℕ)

/-- The left operand's row is the result's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (k : (DotDims.plain M K N).contr.Idx) :
    ((DotDims.plain M K N).lhsIdx i k 1).val = (k ⟨0, (show 0 < (DotDims.plain M K N).contr.rank from Nat.one_pos)⟩).val :=
  (DotDims.plain M K N).lhsIdx_val_of_single rfl i k

/-- The right operand's row is the contraction coordinate. -/
theorem rhs_row (i : (⟨2, ![M, N]⟩ : Shape).Idx) (k : (DotDims.plain M K N).contr.Idx) :
    ((DotDims.plain M K N).rhsIdx i k 0).val = (k ⟨0, (show 0 < (DotDims.plain M K N).contr.rank from Nat.one_pos)⟩).val :=
  (DotDims.plain M K N).rhsIdx_val_of_single rfl i k

/-- The right operand's column is the result's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index, re-indexed by its one coordinate. -/
theorem sum_contr (x : (⟨2, ![M, K]⟩ : Shape).Idx → EReal) (y : (⟨2, ![K, N]⟩ : Shape).Idx → EReal) (p : Fin M) (q : Fin N) :
    ∑ k : (DotDims.plain M K N).contr.Idx,
        x ((DotDims.plain M K N).lhsIdx (ix2 p q) k) * y ((DotDims.plain M K N).rhsIdx (ix2 p q) k)
      = ∑ k : Fin K, x (ix2 p k) * y (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

variable {M K N}

/-- The vector unit's product into the zero accumulator, at entry (p, q). The dimension record is any one that
    is the plain one (a program's own record is, by unfolding). -/
theorem matmul_zero_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    matmul D prec x y (constant (F := Ideal) ⟨2, ![M, N]⟩ .f32 0x00000000#32) (ix2 p q) = ∑ k : Fin K, x (ix2 p k) * y (ix2 k q) := by
  subst hD
  exact (Ideal.matmul_constant_zero_apply _ prec x y (ix2 p q)).trans (sum_contr M K N x y p q)

/-- The host's dot_general, at entry (p, q). -/
theorem dotGeneral_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  subst hD
  exact (Ideal.dotGeneral_apply _ prec .single x y (ix2 p q)).trans (sum_contr M K N x y p q)

end Cert.Lib.PlainDot

end
-- ==== Proof.Spec.lean ====
/-
  The joint network as one function of its six arguments, entry by entry, on the extended reals.

  For a batch b, an encoder frame t, a predictor position u and an output unit k,

      out (b, t, u, k) = ( ∑ j, max ( hf (b, t, j) + hg (b, u, j) + b1 j ) 0 · W2 (j, k) ) + b2 k

  where hf (b, t, j) = ∑ h < 1024, f (b, t, h) · W1 (h, j) uses the first 1024 rows of W1 and
  hg (b, u, j) = ∑ h < 320, g (b, u, h) · W1 (1024 + h, j) the remaining 320. The zero of the maximum is kept as the
  float word of +0.0, the same word on both sides of the comparison.
-/
import Idealize.ShloMosaic.PureOps.Ideal
import Idealize.ShloMosaic.Lib.ValueIdx

noncomputable section

open scoped BigOperators

namespace Cert.Joint

open Idealize.ShloMosaic Idealize.ShloMosaic.ValueIdx

/-- One output entry from the two hidden rows that meet at it: the encoder-side row `hf`, the predictor-side row
    `hg`, the hidden bias, the column of the output weights and the output bias. -/
def entry (hf hg b1 w2 : Fin 640 → EReal) (b2 : EReal) : EReal :=
  (∑ j : Fin 640, max (hf j + hg j + b1 j) (Ideal.ofBits .f32 0x00000000#32) * w2 j) + b2

/-- Row h of the encoder half of W1 (its first 1024 rows). -/
abbrev topRow (h : Fin 1024) : Fin 1344 := ⟨h.val, by have := h.isLt; omega⟩
/-- Row h of the predictor half of W1 (rows 1024 to 1343). -/
abbrev lowRow (h : Fin 320) : Fin 1344 := ⟨1024 + h.val, by have := h.isLt; omega⟩

/-- The encoder-side hidden row at (b, t): f (b, t, ·) times the first 1024 rows of W1. -/
def encRow (f : (⟨3, ![8, 256, 1024]⟩ : Shape).Idx → EReal) (W1 : (⟨2, ![1344, 640]⟩ : Shape).Idx → EReal)
    (b : Fin 8) (t : Fin 256) : Fin 640 → EReal :=
  fun j => ∑ h : Fin 1024, f (ix3 b t h) * W1 (ix2 (topRow h) j)

/-- The predictor-side hidden row at (b, u): g (b, u, ·) times the last 320 rows of W1. -/
def predRow (g : (⟨3, ![8, 65, 320]⟩ : Shape).Idx → EReal) (W1 : (⟨2, ![1344, 640]⟩ : Shape).Idx → EReal)
    (b : Fin 8) (u : Fin 65) : Fin 640 → EReal :=
  fun j => ∑ h : Fin 320, g (ix3 b u h) * W1 (ix2 (lowRow h) j)

/-- The network's output at explicit coordinates. -/
def at4 (f : (⟨3, ![8, 256, 1024]⟩ : Shape).Idx → EReal) (g : (⟨3, ![8, 65, 320]⟩ : Shape).Idx → EReal)
    (W1 : (⟨2, ![1344, 640]⟩ : Shape).Idx → EReal) (b1 : (⟨1, ![640]⟩ : Shape).Idx → EReal)
    (W2 : (⟨2, ![640, 1024]⟩ : Shape).Idx → EReal) (b2 : (⟨1, ![1024]⟩ : Shape).Idx → EReal)
    (b : Fin 8) (t : Fin 256) (u : Fin 65) (k : Fin 1024) : EReal :=
  entry (encRow f W1 b t) (predRow g W1 b u) (fun j => b1 (ix1 j)) (fun j => W2 (ix2 j k)) (b2 (ix1 k))

/-- The network's output array. -/
def G (f : (⟨3, ![8, 256, 1024]⟩ : Shape).Idx → EReal) (g : (⟨3, ![8, 65, 320]⟩ : Shape).Idx → EReal)
    (W1 : (⟨2, ![1344, 640]⟩ : Shape).Idx → EReal) (b1 : (⟨1, ![640]⟩ : Shape).Idx → EReal)
    (W2 : (⟨2, ![640, 1024]⟩ : Shape).Idx → EReal) (b2 : (⟨1, ![1024]⟩ : Shape).Idx → EReal) :
    (⟨4, ![8, 256, 65, 1024]⟩ : Shape).Idx → EReal :=
  fun i => at4 f g W1 b1 W2 b2 (i 0) (i 1) (i 2) (i 3)

end Cert.Joint

end
-- ==== Proof.Payload.lean ====
/-
  The body's two computed values read at a single entry, on the extended reals.

  The predictor projection: entry (u, j) of g_blk · W1g is the sum over h < 320 of g_blk (0, u, h) · W1g (h, j)
  (the change of float format is the identity, the product into a zero accumulator is the plain sum).

  The logits block: the body adds the encoder row r of f_blk · W1f, the scratch row u and the hidden bias, takes the
  maximum with zero, flattens the 32 × 72 rows to 2304, multiplies by W2, adds the output bias, unflattens and keeps
  the first 65 of each 72 rows. Row 72 r + u of the flattened matrix is row (r, u) of the 3-D one, so entry
  (0, r, u, k) of what is stored is the network's entry formula for encoder row r and scratch row u.
-/
import proofs.«148343_j28862180229192_2_alg».proof.Proof.Gen.KernelIdeal.Skeleton
import proofs.«148343_j28862180229192_2_alg».proof.Proof.LibPlainDot
import proofs.«148343_j28862180229192_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- A scratch row below 65, as one of the 72 rows. -/
abbrev up (u : Fin 65) : Fin 72 := ⟨u.val, by have := u.isLt; omega⟩
/-- Row (r, u') of the 32 × 72 rows, flattened. -/
abbrev flat (r : Fin 32) (u' : Fin 72) : Fin 2304 := ⟨72 * r.val + u'.val, by have := r.isLt; have := u'.isLt; omega⟩

/-! ## The layout operations of the body at explicit coordinates -/

theorem drop_f (x0 : Vec Ideal S1x32x1024 .f32) (hc : S1x32x1024.ShapeCasts S32x1024) (r : Fin 32) (h : Fin 1024) :
    shapeCast S32x1024 x0 hc (ix2 r h) = x0 (ix3 0 r h) :=
  (shapeCast_dropUnit_apply ![32, 1024] x0 hc (ix2 r h)).trans
    (congrArg x0 (funext fun a => by match a with | ⟨0, _⟩ => rfl | ⟨1, _⟩ => rfl | ⟨2, _⟩ => rfl))

theorem drop_g (x1 : Vec Ideal S1x65x320 .f32) (hc : S1x65x320.ShapeCasts S65x320) (u : Fin 65) (h : Fin 320) :
    shapeCast S65x320 x1 hc (ix2 u h) = x1 (ix3 0 u h) :=
  (shapeCast_dropUnit_apply ![65, 320] x1 hc (ix2 u h)).trans
    (congrArg x1 (funext fun a => by match a with | ⟨0, _⟩ => rfl | ⟨1, _⟩ => rfl | ⟨2, _⟩ => rfl))

theorem add_unit (v : FVec Ideal S32x65x1024 .f32) (hc : S32x65x1024.ShapeCasts S1x32x65x1024) (r : Fin 32) (u : Fin 65) (k : Fin 1024) :
    shapeCast S1x32x65x1024 v hc (ix4 0 r u k) = v (ix3 r u k) :=
  (shapeCast_addUnit_apply ![32, 65, 1024] v hc (ix4 0 r u k)).trans
    (congrArg v (funext fun a => by match a with | ⟨0, _⟩ => rfl | ⟨1, _⟩ => rfl | ⟨2, _⟩ => rfl))

theorem keep65 (v : FVec Ideal S32x72x1024 .f32) (hs : S32x72x1024.Slices ![0, 0, 0] S32x65x1024) (r : Fin 32) (u : Fin 65) (k : Fin 1024) :
    extractStridedSlice S32x65x1024 ![0, 0, 0] v hs (ix3 r u k) = v (ix3 r (up u) k) :=
  extractStridedSlice_apply ![0, 0, 0] v hs (ix3 r u k) (ix3 r (up u) k) (fun a => by
    match a with
    | ⟨0, _⟩ => show r.val = 0 + r.val; omega
    | ⟨1, _⟩ => show u.val = 0 + u.val; omega
    | ⟨2, _⟩ => show k.val = 0 + k.val; omega)

theorem unflatten (v : FVec Ideal S2304x1024 .f32) (hc : S2304x1024.ShapeCasts S32x72x1024) (r : Fin 32) (u' : Fin 72) (k : Fin 1024) :
    shapeCast S32x72x1024 v hc (ix3 r u' k) = v (ix2 (flat r u') k) :=
  shapeCast_apply v hc (ix3 r u' k) (ix2 (flat r u') k) (by
    rw [Shape.rowMajor_val_two, Shape.rowMajor_val_three]
    show (72 * r.val + u'.val) * 1024 + k.val = (r.val * 72 + u'.val) * 1024 + k.val
    omega)

theorem flatten (v : FVec Ideal S32x72x640 .f32) (hc : S32x72x640.ShapeCasts S2304x640) (r : Fin 32) (u' : Fin 72) (j : Fin 640) :
    shapeCast S2304x640 v hc (ix2 (flat r u') j) = v (ix3 r u' j) :=
  shapeCast_apply v hc (ix2 (flat r u') j) (ix3 r u' j) (by
    rw [Shape.rowMajor_val_two, Shape.rowMajor_val_three]
    show (r.val * 72 + u'.val) * 640 + j.val = (72 * r.val + u'.val) * 640 + j.val
    omega)

theorem bias_out (x6 : Vec Ideal S1024 .f32) (hc : S1024.ShapeCasts S1x1024) (hb : S1x1024.Broadcasts S2304x1024) (q : Fin 2304) (k : Fin 1024) :
    broadcastTo S2304x1024 (shapeCast S1x1024 x6 hc) hb (ix2 q k) = x6 (ix1 k) :=
  (broadcastTo_apply (shapeCast S1x1024 x6 hc) hb (ix2 q k) (ix2 0 k) (fun a => by
    match a with
    | ⟨0, _⟩ => rfl
    | ⟨1, _⟩ => rfl)).trans
    ((shapeCast_addUnit_apply ![1024] x6 hc (ix2 0 k)).trans
      (congrArg x6 (funext fun a => by match a with | ⟨0, _⟩ => rfl)))

theorem spread_enc (v : FVec Ideal S32x640 .f32) (hc : S32x640.ShapeCasts S32x1x640) (hb : S32x1x640.Broadcasts S32x72x640)
    (r : Fin 32) (u' : Fin 72) (j : Fin 640) :
    broadcastTo S32x72x640 (shapeCast S32x1x640 v hc) hb (ix3 r u' j) = v (ix2 r j) :=
  (broadcastTo_apply (shapeCast S32x1x640 v hc) hb (ix3 r u' j) (ix3 r 0 j) (fun a => by
    match a with
    | ⟨0, _⟩ => rfl
    | ⟨1, _⟩ => rfl
    | ⟨2, _⟩ => rfl)).trans
    (shapeCast_apply v hc (ix3 r 0 j) (ix2 r j) (by
      rw [Shape.rowMajor_val_two, Shape.rowMajor_val_three]
      show r.val * 640 + j.val = (r.val * 1 + 0) * 640 + j.val
      omega))

theorem spread_scr (s : Vec Ideal S72x640 .f32) (hc : S72x640.ShapeCasts S1x72x640) (hb : S1x72x640.Broadcasts S32x72x640)
    (r : Fin 32) (u' : Fin 72) (j : Fin 640) :
    broadcastTo S32x72x640 (shapeCast S1x72x640 s hc) hb (ix3 r u' j) = s (ix2 u' j) :=
  (broadcastTo_apply (shapeCast S1x72x640 s hc) hb (ix3 r u' j) (ix3 0 u' j) (fun a => by
    match a with
    | ⟨0, _⟩ => rfl
    | ⟨1, _⟩ => rfl
    | ⟨2, _⟩ => rfl)).trans
    ((shapeCast_addUnit_apply ![72, 640] s hc (ix3 0 u' j)).trans
      (congrArg s (funext fun a => by match a with | ⟨0, _⟩ => rfl | ⟨1, _⟩ => rfl)))

theorem spread_bias (x4 : Vec Ideal S640 .f32) (hc : S640.ShapeCasts S1x1x640) (hb : S1x1x640.Broadcasts S32x72x640)
    (r : Fin 32) (u' : Fin 72) (j : Fin 640) :
    broadcastTo S32x72x640 (shapeCast S1x1x640 x4 hc) hb (ix3 r u' j) = x4 (ix1 j) :=
  (broadcastTo_apply (shapeCast S1x1x640 x4 hc) hb (ix3 r u' j) (ix3 0 0 j) (fun a => by
    match a with
    | ⟨0, _⟩ => rfl
    | ⟨1, _⟩ => rfl
    | ⟨2, _⟩ => rfl)).trans
    (shapeCast_apply x4 hc (ix3 0 0 j) (ix1 j) (by
      rw [Shape.rowMajor_val_one, Shape.rowMajor_val_three]
      show j.val = (0 * 1 + 0) * 640 + j.val
      omega))

/-! ## The two payloads -/

/-- The predictor projection at (u, j). -/
theorem pay2_apply (x1 : Vec Ideal S1x65x320 .f32) (x3 : Vec Ideal S320x640 .bf16) (u : Fin 65) (j : Fin 640) :
    k0_pay2 (F := Ideal) x1 x3 (ix2 u j) = ∑ h : Fin 320, x1 (ix3 0 u h) * x3 (ix2 h j) := by
  unfold k0_pay2
  simp only [shapeCast_self]
  refine (Cert.Lib.PlainDot.matmul_zero_apply (φ₁ := .bf16) (φ₂ := .bf16) dot_S65x320_S320x640_S65x640_1_0_0_1_n_n rfl none _ _ u j).trans ?_
  refine Finset.sum_congr rfl fun h _ => ?_
  rw [truncf_apply, drop_g]

/-- The logits block at (0, r, u, k), for any contents `s` of the scratch. -/
theorem pay3_apply (x0 : Vec Ideal S1x32x1024 .f32) (x2 : Vec Ideal S1024x640 .bf16) (s : Vec Ideal S72x640 .f32)
    (x4 : Vec Ideal S640 .f32) (x5 : Vec Ideal S640x1024 .bf16) (x6 : Vec Ideal S1024 .f32)
    (r : Fin 32) (u : Fin 65) (k : Fin 1024) :
    k0_pay3 (F := Ideal) x0 x2 s x4 x5 x6 (ix4 0 r u k)
      = Cert.Joint.entry (fun j => ∑ h : Fin 1024, x0 (ix3 0 r h) * x2 (ix2 h j)) (fun j => s (ix2 (up u) j))
          (fun j => x4 (ix1 j)) (fun j => x5 (ix2 j k)) (x6 (ix1 k)) := by
  unfold k0_pay3 Cert.Joint.entry
  simp only [shapeCast_self]
  rw [add_unit, keep65, unflatten, addf_apply, bias_out]
  refine congrArg (· + x6 (ix1 k)) ?_
  refine (Cert.Lib.PlainDot.matmul_zero_apply (φ₁ := .bf16) (φ₂ := .bf16) dot_S2304x640_S640x1024_S2304x1024_1_0_0_1_n_n rfl none _ _ (flat r (up u)) k).trans ?_
  refine Finset.sum_congr rfl fun j _ => ?_
  rw [truncf_apply, flatten, maximumf_apply, addf_apply, addf_apply, spread_enc, spread_scr, spread_bias,
    broadcast_apply]
  refine congrArg (fun z => max (z + s (ix2 (up u) j) + x4 (ix1 j)) (Ideal.ofBits .f32 0x00000000#32) * x5 (ix2 j k)) ?_
  refine (Cert.Lib.PlainDot.matmul_zero_apply (φ₁ := .bf16) (φ₂ := .bf16) dot_S32x1024_S1024x640_S32x640_1_0_0_1_n_n rfl none _ _ r j).trans ?_
  refine Finset.sum_congr rfl fun h _ => ?_
  rw [truncf_apply, drop_f]

end Cert.KernelIdeal.Payload

end
-- ==== Proof.Blocks.lean ====
/-
  The arrays the region reads, and each window's block at a grid point, at explicit coordinates.

  The grid is 8 batches by 8 tiles of 32 encoder frames; point t is batch t / 8, tile t % 8. The f window's block at t is
  rows 32 (t % 8) … 32 (t % 8) + 31 of batch t / 8; the g window's block is all of batch t / 8; the weight and bias
  windows are whole arrays at every point. Three of those arrays are prepared before the region from the arguments: the
  first 1024 rows of W1, its last 320 rows, and W2, each through a change of float format that is the identity here.
-/
import proofs.«148343_j28862180229192_2_alg».proof.Proof.Gen.KernelIdeal.Value
import proofs.«148343_j28862180229192_2_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Joint

variable (m : (ℓ : Loc nD τ sig) → Buf (Elt Ideal) ℓ)

/-- The batch of grid point t. -/
def bOf (t : Fin cfg0.N) : Fin 8 := ⟨t.val / 8, by have h := t.isLt; have e : cfg0.N = 64 := N_0; omega⟩
/-- The encoder frame of row r of point t's tile. -/
def tOf (t : Fin cfg0.N) (r : Fin 32) : Fin 256 := ⟨32 * (t.val % 8) + r.val, by have := r.isLt; omega⟩

/-- The printed index maps, decided over the 64 grid points. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 4) = t.val / 8 ∧ win0_7.index t (1 : Fin 4) = t.val % 8
    ∧ win0_7.index t (2 : Fin 4) = 0 ∧ win0_7.index t (3 : Fin 4) = 0 :=
  (by decide +kernel : ∀ t : Fin grid0.N, _)

/-! ## The arrays prepared before the region -/

theorem V_w1f (c : Dev nD) : (V m c main_v1 : S1024x640.Idx → EReal)
    = truncf (F := Ideal) .bf16 (extractStridedSlice S1024x640 ![0, 0] (m ((c : Thread nD τ).loc main_arg2) : S1344x640.Idx → EReal) slices_S1344x640_S1024x640_0_0) bitsLt_bf16_f32 := by
  dsimp only [V, hostOps0]; after_results <;> rfl

theorem V_w1g (c : Dev nD) : (V m c main_v3 : S320x640.Idx → EReal)
    = truncf (F := Ideal) .bf16 (extractStridedSlice S320x640 ![1024, 0] (m ((c : Thread nD τ).loc main_arg2) : S1344x640.Idx → EReal) slices_S1344x640_S320x640_1024_0) bitsLt_bf16_f32 := by
  dsimp only [V, hostOps0]; after_results <;> rfl

theorem V_w2 (c : Dev nD) : (V m c main_v4 : S640x1024.Idx → EReal)
    = truncf (F := Ideal) .bf16 (m ((c : Thread nD τ).loc main_arg4) : S640x1024.Idx → EReal) bitsLt_bf16_f32 := by
  dsimp only [V, hostOps0]; after_results <;> rfl

/-- The encoder half of W1 at (h, j) is W1 at (h, j). -/
theorem w1f_apply (c : Dev nD) (h : Fin 1024) (j : Fin 640) :
    V m c main_v1 (ix2 h j) = m ((c : Thread nD τ).loc main_arg2) (ix2 (topRow h) j) := by
  rw [V_w1f]
  exact extractStridedSlice_apply ![0, 0] _ slices_S1344x640_S1024x640_0_0 (ix2 h j) (ix2 (topRow h) j) (fun a => by
    match a with
    | ⟨0, _⟩ => show h.val = 0 + h.val; omega
    | ⟨1, _⟩ => show j.val = 0 + j.val; omega)

/-- The predictor half of W1 at (h, j) is W1 at (1024 + h, j). -/
theorem w1g_apply (c : Dev nD) (h : Fin 320) (j : Fin 640) :
    V m c main_v3 (ix2 h j) = m ((c : Thread nD τ).loc main_arg2) (ix2 (lowRow h) j) := by
  rw [V_w1g]
  exact extractStridedSlice_apply ![1024, 0] _ slices_S1344x640_S320x640_1024_0 (ix2 h j) (ix2 (lowRow h) j) (fun a => by
    match a with
    | ⟨0, _⟩ => show 1024 + h.val = 1024 + h.val; rfl
    | ⟨1, _⟩ => show j.val = 0 + j.val; omega)

/-- W2 as the region finds it is W2. -/
theorem w2_apply (c : Dev nD) (j : Fin 640) (k : Fin 1024) :
    V m c main_v4 (ix2 j k) = m ((c : Thread nD τ).loc main_arg4) (ix2 j k) := by
  rw [V_w2]; rfl

/-! ## The windows' blocks at a point -/

/-- Row r of point t's f block is frame 32 (t % 8) + r of batch t / 8. -/
theorem blk_f (c : Dev nD) (t : Fin cfg0.N) (r : Fin 32) (h : Fin 1024) :
    (iblk m c 0 t : Vec Ideal S1x32x1024 .f32) (ix3 0 r h) = m ((c : Thread nD τ).loc main_arg0) (ix3 (bOf t) (tOf t r) h) := by
  obtain ⟨e0, e1, e2, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * 0 = t.val / 8; rw [e0]; omega
  | ⟨1, _⟩ => show win0_0.index t (1 : Fin 3) * 32 + 1 * r.val = 32 * (t.val % 8) + r.val; rw [e1]; omega
  | ⟨2, _⟩ => show win0_0.index t (2 : Fin 3) * 1024 + 1 * h.val = h.val; rw [e2]; omega

/-- Point t's g block is batch t / 8 of g. -/
theorem blk_g (c : Dev nD) (t : Fin cfg0.N) (u : Fin 65) (h : Fin 320) :
    (iblk m c 1 t : Vec Ideal S1x65x320 .f32) (ix3 0 u h) = m ((c : Thread nD τ).loc main_arg1) (ix3 (bOf t) u h) := by
  obtain ⟨-, -, -, e0, e1, e2, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 1 + 1 * 0 = t.val / 8; rw [e0]; omega
  | ⟨1, _⟩ => show win0_1.index t (1 : Fin 3) * 65 + 1 * u.val = u.val; rw [e1]; omega
  | ⟨2, _⟩ => show win0_1.index t (2 : Fin 3) * 320 + 1 * h.val = h.val; rw [e2]; omega

/-- The encoder half of W1 is staged whole at every point. -/
theorem blk_w1f (c : Dev nD) (t : Fin cfg0.N) (h : Fin 1024) (j : Fin 640) :
    (iblk m c 2 t : Vec Ideal S1024x640 .bf16) (ix2 h j) = m ((c : Thread nD τ).loc main_arg2) (ix2 (topRow h) j) := by
  obtain ⟨-, -, -, -, -, -, e0, e1, -⟩ := idx_facts t
  rw [← w1f_apply m c h j]
  unfold iblk
  rw [View.read_apply]
  show V m c main_v1 _ = _
  refine congrArg (V m c main_v1) (funext fun a => Fin.ext ?_)
  match a with
  | ⟨0, _⟩ => show win0_2.index t (0 : Fin 2) * 1024 + 1 * h.val = h.val; rw [e0]; omega
  | ⟨1, _⟩ => show win0_2.index t (1 : Fin 2) * 640 + 1 * j.val = j.val; rw [e1]; omega

/-- The predictor half of W1 is staged whole at every point. -/
theorem blk_w1g (c : Dev nD) (t : Fin cfg0.N) (h : Fin 320) (j : Fin 640) :
    (iblk m c 3 t : Vec Ideal S320x640 .bf16) (ix2 h j) = m ((c : Thread nD τ).loc main_arg2) (ix2 (lowRow h) j) := by
  obtain ⟨-, -, -, -, -, -, -, -, e0, e1, -⟩ := idx_facts t
  rw [← w1g_apply m c h j]
  unfold iblk
  rw [View.read_apply]
  show V m c main_v3 _ = _
  refine congrArg (V m c main_v3) (funext fun a => Fin.ext ?_)
  match a with
  | ⟨0, _⟩ => show win0_3.index t (0 : Fin 2) * 320 + 1 * h.val = h.val; rw [e0]; omega
  | ⟨1, _⟩ => show win0_3.index t (1 : Fin 2) * 640 + 1 * j.val = j.val; rw [e1]; omega

/-- The hidden bias is staged whole at every point. -/
theorem blk_b1 (c : Dev nD) (t : Fin cfg0.N) (j : Fin 640) :
    (iblk m c 4 t : Vec Ideal S640 .f32) (ix1 j) = m ((c : Thread nD τ).loc main_arg3) (ix1 j) := by
  obtain ⟨-, -, -, -, -, -, -, -, -, -, e0, -⟩ := idx_facts t
  unfold iblk
  rw [View.read_apply]
  show V m c main_arg3 _ = _
  rw [V_main_arg3]
  refine congrArg (m ((c : Thread nD τ).loc main_arg3)) (funext fun a => Fin.ext ?_)
  match a with
  | ⟨0, _⟩ => show win0_4.index t (0 : Fin 1) * 640 + 1 * j.val = j.val; rw [e0]; omega

/-- W2 is staged whole at every point. -/
theorem blk_w2 (c : Dev nD) (t : Fin cfg0.N) (j : Fin 640) (k : Fin 1024) :
    (iblk m c 5 t : Vec Ideal S640x1024 .bf16) (ix2 j k) = m ((c : Thread nD τ).loc main_arg4) (ix2 j k) := by
  obtain ⟨-, -, -, -, -, -, -, -, -, -, -, e0, e1, -⟩ := idx_facts t
  rw [← w2_apply m c j k]
  unfold iblk
  rw [View.read_apply]
  show V m c main_v4 _ = _
  refine congrArg (V m c main_v4) (funext fun a => Fin.ext ?_)
  match a with
  | ⟨0, _⟩ => show win0_5.index t (0 : Fin 2) * 640 + 1 * j.val = j.val; rw [e0]; omega
  | ⟨1, _⟩ => show win0_5.index t (1 : Fin 2) * 1024 + 1 * k.val = k.val; rw [e1]; omega

/-- The output bias is staged whole at every point. -/
theorem blk_b2 (c : Dev nD) (t : Fin cfg0.N) (k : Fin 1024) :
    (iblk m c 6 t : Vec Ideal S1024 .f32) (ix1 k) = m ((c : Thread nD τ).loc main_arg5) (ix1 k) := by
  obtain ⟨-, -, -, -, -, -, -, -, -, -, -, -, -, e0, -⟩ := idx_facts t
  unfold iblk
  rw [View.read_apply]
  show V m c main_arg5 _ = _
  rw [V_main_arg5]
  refine congrArg (m ((c : Thread nD τ).loc main_arg5)) (funext fun a => Fin.ext ?_)
  match a with
  | ⟨0, _⟩ => show win0_6.index t (0 : Fin 1) * 1024 + 1 * k.val = k.val; rw [e0]; omega

end Cert.KernelIdeal.Blocks

end
-- ==== Proof.Carried.lean ====
/-
  What the scratch and the output block hold after each grid point.

  Point by point: the first point of a batch (t % 8 = 0) seeds the scratch from the batch's g block and computes the
  logits from it; any other point keeps the scratch of the point before and computes the logits from that. Hence, by
  induction along the grid, after EVERY point t the rows 0 … 64 of the scratch are the predictor-side hidden rows of
  batch t / 8: a first point writes them, and a later point of the same batch inherits them, (t − 1) / 8 = t / 8 when
  t is not a multiple of 8. The output block of every point is the logits of its f block and of that scratch.
-/
import proofs.«148343_j28862180229192_2_alg».proof.Proof.Pieces
import proofs.«148343_j28862180229192_2_alg».proof.Proof.Payload
import proofs.«148343_j28862180229192_2_alg».proof.Proof.Blocks

noncomputable section

open scoped BigOperators
open Idealize.ShloMosaic Idealize.ShloMosaic.TcCoe Idealize.SL.Sem
open Idealize.ShloMosaic.Pipeline (Dat)

namespace Cert.KernelIdeal.Carried

open Cert.KernelIdeal Cert.KernelIdeal.Gen Idealize.ShloMosaic.ValueIdx Cert.Joint
open Cert.KernelIdeal.Pieces Cert.KernelIdeal.Payload Cert.KernelIdeal.Blocks

variable (m : (ℓ : Loc nD τ sig) → Buf (Elt Ideal) ℓ)

/-- After the first point of a batch the scratch is seeded from the batch's g block … -/
theorem scratch_first_eq (c : Dev nD) (t : Fin cfg0.N) (h0 : t.val % 8 = 0) :
    (outsAt0 m c t.val t.isLt).2 = seeded (F := Ideal) (iblk m c 1 t) (iblk m c 3 t) := by
  rw [outsAt0_A m c t h0]
  dsimp only
  exact sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)

/-- … and the output block is the logits of the f block over that seeded scratch. -/
theorem block_first_eq (c : Dev nD) (t : Fin cfg0.N) (h0 : t.val % 8 = 0) :
    (outsAt0 m c t.val t.isLt).1
      = k0_pay3 (F := Ideal) (iblk m c 0 t) (iblk m c 2 t) (seeded (F := Ideal) (iblk m c 1 t) (iblk m c 3 t))
          (iblk m c 4 t) (iblk m c 5 t) (iblk m c 6 t) := by
  rw [outsAt0_A m c t h0]
  dsimp only
  exact out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)

/-- After any other point the scratch is what the point before left … -/
theorem scratch_later_eq (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- … and the output block is the logits of the f block over that scratch. -/
theorem block_later_eq (c : Dev nD) (t : Fin cfg0.N) (h0 : ¬t.val % 8 = 0) :
    (outsAt0 m c t.val t.isLt).1
      = k0_pay3 (F := Ideal) (iblk m c 0 t) (iblk m c 2 t) (outsAt0 m c (t.val - 1) (Nat.lt_of_le_of_lt (Nat.sub_le _ _) t.isLt)).2
          (iblk m c 4 t) (iblk m c 5 t) (iblk m c 6 t) := by
  rw [outsAt0_B m c t h0]
  dsimp only
  exact out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-- At every point the output block is the logits of the point's f block and of the scratch as the point leaves it. -/
theorem block_eq (c : Dev nD) (t : Fin cfg0.N) :
    (outsAt0 m c t.val t.isLt).1
      = k0_pay3 (F := Ideal) (iblk m c 0 t) (iblk m c 2 t) (outsAt0 m c t.val t.isLt).2 (iblk m c 4 t) (iblk m c 5 t) (iblk m c 6 t) := by
  by_cases h0 : t.val % 8 = 0
  · rw [scratch_first_eq m c t h0]; exact block_first_eq m c t h0
  · rw [scratch_later_eq m c t h0]; exact block_later_eq m c t h0

/-- After a first point of a batch, row u < 65 of the scratch is the batch's predictor-side hidden row u. -/
theorem scratch_first (c : Dev nD) (t : Fin cfg0.N) (h0 : t.val % 8 = 0) (u : Fin 65) (j : Fin 640) :
    (outsAt0 m c t.val t.isLt).2 (ix2 (up u) j)
      = predRow (m ((c : Thread nD τ).loc main_arg1)) (m ((c : Thread nD τ).loc main_arg2)) (bOf t) u j := by
  rw [scratch_first_eq m c t h0]
  refine (seeded_row (F := Ideal) (iblk m c 1 t) (iblk m c 3 t) u j).trans ?_
  refine (pay2_apply (iblk m c 1 t) (iblk m c 3 t) u j).trans ?_
  unfold predRow
  refine Finset.sum_congr rfl fun h _ => ?_
  rw [blk_g m c t u h, blk_w1g m c t h j]

/-- After point n, row u < 65 of the scratch is the predictor-side hidden row (n / 8, u). -/
theorem scratch_rows (c : Dev nD) : ∀ (n : ℕ) (hn : n < cfg0.N) (u : Fin 65) (j : Fin 640),
    (outsAt0 m c n hn).2 (ix2 (up u) j)
      = predRow (m ((c : Thread nD τ).loc main_arg1)) (m ((c : Thread nD τ).loc main_arg2)) (bOf ⟨n, hn⟩) u j := by
  intro n
  induction n with
  | zero => intro hn u j; exact scratch_first m c ⟨0, hn⟩ rfl u j
  | succ n ih =>
    intro hn u j
    by_cases h0 : (n + 1) % 8 = 0
    · exact scratch_first m c ⟨n + 1, hn⟩ h0 u j
    · have e2 : (outsAt0 m c (n + 1) hn).2 = (outsAt0 m c n (Nat.lt_of_succ_lt hn)).2 :=
        scratch_later_eq m c ⟨n + 1, hn⟩ h0
      rw [e2]
      refine (ih (Nat.lt_of_succ_lt hn) u j).trans ?_
      have eb : bOf ⟨n, Nat.lt_of_succ_lt hn⟩ = bOf ⟨n + 1, hn⟩ :=
        Fin.ext (by show n / 8 = (n + 1) / 8; omega)
      rw [eb]

end Cert.KernelIdeal.Carried

end
-- ==== Proof.KernelValue.lean ====
/-
  From the blocks to the whole result array.

  Entry (0, r, u, k) of the block that point t writes back is the network's output at batch t / 8, frame
  32 (t % 8) + r, position u, unit k: the block's encoder row is that frame's hidden row, its scratch row the batch's
  predictor-side hidden row u. The block of point t sits in the result array at rows (t / 8, 32 (t % 8) + ·, ·, ·), so
  every point writes back the restriction of ONE function, the network's output array, to its block. The 64 blocks
  cover the array — index (b, f, u, k) lies in the block of point 8 b + f / 32 — hence the result array ends as that
  function of the six arguments.
-/
import proofs.«148343_j28862180229192_2_alg».proof.Proof.Carried

noncomputable section

open scoped BigOperators
open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx Cert.Joint
open Cert.KernelIdeal.Pieces Cert.KernelIdeal.Payload Cert.KernelIdeal.Blocks Cert.KernelIdeal.Carried

variable (m : (ℓ : Loc nD τ sig) → Buf (Elt Ideal) ℓ) (ρ : Dev nD → PrngReg)

/-- The network's output array of the six arguments as launched. -/
abbrev net (c : Dev nD) : S8x256x65x1024.Idx → EReal := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem entry_congr {hf hf' hg hg' b1 b1' w2 w2' : Fin 640 → EReal} {b2 b2' : EReal}
    (e1 : hf = hf') (e2 : hg = hg') (e3 : b1 = b1') (e4 : w2 = w2') (e5 : b2 = b2') :
    entry hf hg b1 w2 b2 = entry hf' hg' b1' w2' b2' := by
  subst e1 e2 e3 e4 e5; rfl

/-- Two functions on a [1, 32, 65, 1024] block agree when they agree at every (0, r, u, k). -/
theorem ext_block {α : Type} (A B : S1x32x65x1024.Idx → α)
    (h : ∀ (r : Fin 32) (u : Fin 65) (k : Fin 1024), A (ix4 0 r u k) = B (ix4 0 r u k)) : A = B :=
  funext fun y => by
    have hy : y = ix4 0 (y 1) (y 2) (y 3) := funext fun a => by
      match a with
      | ⟨0, _⟩ => exact Fin.ext (by have h0 : (y 0).val < 1 := (y 0).isLt; show (y 0).val = 0; omega)
      | ⟨1, _⟩ => rfl
      | ⟨2, _⟩ => rfl
      | ⟨3, _⟩ => rfl
    rw [hy]; exact h _ _ _

/-- Entry (0, r, u, k) of what point t leaves in the output block. -/
theorem block_apply (c : Dev nD) (t : Fin cfg0.N) (r : Fin 32) (u : Fin 65) (k : Fin 1024) :
    (outsAt0 m c t.val t.isLt).1 (ix4 0 r u k) = at4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (bOf t) (tOf t r) u k := by
  refine (congrFun (block_eq m c t) (ix4 0 r u k)).trans ?_
  refine (pay3_apply (iblk m c 0 t) (iblk m c 2 t) (outsAt0 m c t.val t.isLt).2 (iblk m c 4 t) (iblk m c 5 t) (iblk m c 6 t) r u k).trans ?_
  unfold at4 encRow
  exact entry_congr
    (funext fun j => Finset.sum_congr rfl fun h _ => by rw [blk_f m c t r h, blk_w1f m c t h j])
    (funext fun j => scratch_rows m c t.val t.isLt u j)
    (funext fun j => blk_b1 m c t j)
    (funext fun j => blk_w2 m c t j k)
    (blk_b2 m c t k)

/-- What point t writes back is block t of the network's output array. -/
theorem flushed_eq (c : Dev nD) (t : Fin cfg0.N) :
    (dats m 0 c).flushed 7 t = ((cfg0.win 7).blk t).view.read (Elt Ideal) (net m c) := by
  rw [Value.flushed7]
  obtain ⟨-, -, -, -, -, -, -, -, -, -, -, -, -, -, e0, e1, e2, e3⟩ := idx_facts t
  refine ext_block _ _ fun r u k => ?_
  show (outsAt0 m c t.val t.isLt).1 (ix4 0 r u k) = net m c (((cfg0.win 7).blk t).view.emb (ix4 0 r u k))
  refine (block_apply m c t r u k).trans ?_
  have i0 : (((cfg0.win 7).blk t).view.emb (ix4 0 r u k)) 0 = bOf t :=
    Fin.ext (by show win0_7.index t (0 : Fin 4) * 1 + 1 * 0 = t.val / 8; rw [e0]; omega)
  have i1 : (((cfg0.win 7).blk t).view.emb (ix4 0 r u k)) 1 = tOf t r :=
    Fin.ext (by show win0_7.index t (1 : Fin 4) * 32 + 1 * r.val = 32 * (t.val % 8) + r.val; rw [e1]; omega)
  have i2 : (((cfg0.win 7).blk t).view.emb (ix4 0 r u k)) 2 = u :=
    Fin.ext (by show win0_7.index t (2 : Fin 4) * 65 + 1 * u.val = u.val; rw [e2]; omega)
  have i3 : (((cfg0.win 7).blk t).view.emb (ix4 0 r u k)) 3 = k :=
    Fin.ext (by show win0_7.index t (3 : Fin 4) * 1024 + 1 * k.val = k.val; rw [e3]; omega)
  show _ = at4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ _ _
  rw [i0, i1, i2, i3]

/-- Every index of the result array lies in some point's block. -/
theorem cover (i : S8x256x65x1024.Idx) :
    ∃ t : Fin cfg0.N, (cfg0.win 7).flush t = true ∧ i ∈ ((cfg0.win 7).blk t).view.set := by
  have h0 : (i 0).val < 8 := (i 0).isLt
  have h1 : (i 1).val < 256 := (i 1).isLt
  have h2 : (i 2).val < 65 := (i 2).isLt
  have h3 : (i 3).val < 1024 := (i 3).isLt
  have hN : cfg0.N = 64 := N_0
  obtain ⟨t, ht⟩ : ∃ t : Fin cfg0.N, t.val = 8 * (i 0).val + (i 1).val / 32 := ⟨⟨8 * (i 0).val + (i 1).val / 32, by omega⟩, rfl⟩
  obtain ⟨-, -, -, -, -, -, -, -, -, -, -, -, -, -, e0, e1, e2, e3⟩ := idx_facts t
  refine ⟨t, flush0_7 t, ?_⟩
  show i ∈ ((View.whole main_v5).slice (win0_7.rect t)).set
  rw [View.set_slice_whole, Rect.mem_set_unit]
  intro a
  match a with
  | ⟨0, _⟩ =>
    show win0_7.index t (0 : Fin 4) * 1 ≤ (i 0).val ∧ (i 0).val < win0_7.index t (0 : Fin 4) * 1 + 1
    rw [e0]; omega
  | ⟨1, _⟩ =>
    show win0_7.index t (1 : Fin 4) * 32 ≤ (i 1).val ∧ (i 1).val < win0_7.index t (1 : Fin 4) * 32 + 32
    rw [e1]; omega
  | ⟨2, _⟩ =>
    show win0_7.index t (2 : Fin 4) * 65 ≤ (i 2).val ∧ (i 2).val < win0_7.index t (2 : Fin 4) * 65 + 65
    rw [e2]; omega
  | ⟨3, _⟩ =>
    show win0_7.index t (3 : Fin 4) * 1024 ≤ (i 3).val ∧ (i 3).val < win0_7.index t (3 : Fin 4) * 1024 + 1024
    rw [e3]; omega

/-- The result array after the run is the network's output array. -/
theorem final (c : Dev nD) : (dats m 0 c).arrAt 7 cfg0.N = net m c :=
  (dats m 0 c).arrAt_eq_of_cover 7 (net m c) (fun t _ => flushed_eq m c t) cover

/-- The kernel's run: the result at the network's output of the arguments, the arguments unchanged. -/
theorem run : θ_run defs (onTc (τ := τ) (main (F := Ideal))) ⟨m, fun _ => 0, ρ⟩ fun r => ∀ c : Dev nD,
      r.2.mem ((c : Thread nD τ).loc main_v5) = net m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KernelValue

end
-- ==== Proof.RefValue.lean ====
/-
  The reference computes the joint network's function: read one operation at a time at an index, its last value is
  the sum over the hidden units of max (hf + hg + b1) 0 · W2 plus b2, with hf and hg the two products of the
  reference's slices of W1 — the slices read rows h and 1024 + h of W1.
-/
import proofs.«148343_j28862180229192_2_alg».proof.Proof.Gen.ReferenceIdeal.Read
import proofs.«148343_j28862180229192_2_alg».proof.Proof.Spec

noncomputable section

open scoped BigOperators

namespace Cert.ReferenceIdeal.RefValue

open Cert.ReferenceIdeal Cert.ReferenceIdeal.Read Idealize.ShloMosaic Idealize.ShloMosaic.ValueIdx

/-- The reference's last stage is the network's function of the six arguments. -/
theorem ref_eq (x0 : (⟨S8x256x1024, .f32⟩ : BufTy).Contents (Elt Ideal)) (x1 : (⟨S8x65x320, .f32⟩ : BufTy).Contents (Elt Ideal))
    (x2 : (⟨S1344x640, .f32⟩ : BufTy).Contents (Elt Ideal)) (x3 : (⟨S640, .f32⟩ : BufTy).Contents (Elt Ideal))
    (x4 : (⟨S640x1024, .f32⟩ : BufTy).Contents (Elt Ideal)) (x5 : (⟨S1024, .f32⟩ : BufTy).Contents (Elt Ideal)) :
    val_main_v16 (F := Ideal) x0 x1 x2 x3 x4 x5 = Cert.Joint.G x0 x1 x2 x3 x4 x5 := by
  funext i
  simp only [val_main_v16_apply, val_main_v13_apply, val_main_v12_apply, val_main_v11_apply, val_main_v8_apply,
    val_main_v6_apply, val_main_v4_apply, val_main_v2_apply, val_main_v0_apply, val_main_v7_apply, val_main_v5_apply,
    val_main_v3_apply, val_main_v1_apply, val_main_v10_apply, val_main_v9_apply, val_main_call0_v0_apply,
    val_main_call0_cst_apply, val_main_v15_apply, val_main_v14_apply]
  simp only [Ideal.addf_def, Ideal.maximumf_def, Ideal.ofBits_def]
  unfold Cert.Joint.G Cert.Joint.at4 Cert.Joint.entry Cert.Joint.encRow Cert.Joint.predRow
  have e5 : idx_main_v14 (idx_main_v15 i) = ix1 (i 3) := funext fun a => by match a with | ⟨0, _⟩ => rfl
  rw [e5]
  refine congrArg (· + x5 (ix1 (i 3))) (Finset.sum_congr rfl fun j _ => ?_)
  have e4 : ridx_main_v13 i j = ix2 j (i 3) := funext fun a => by match a with | ⟨0, _⟩ => rfl | ⟨1, _⟩ => rfl
  have e3 : idx_main_v9 (idx_main_v10 (lidx_main_v13 i j)) = ix1 j := funext fun a => by match a with | ⟨0, _⟩ => rfl
  rw [e4, e3]
  refine congrArg (fun z => max (z + x3 (ix1 j)) (Ideal.ofBits .f32 0x00000000#32) * x4 (ix2 j (i 3))) ?_
  refine congrArg₂ (· + ·) (Finset.sum_congr rfl fun h _ => ?_) (Finset.sum_congr rfl fun h _ => ?_)
  · have a0 : lidx_main_v2 (idx_main_v4 (idx_main_v6 (lidx_main_v13 i j))) h = ix3 (i 0) (i 1) h :=
      funext fun a => by match a with | ⟨0, _⟩ => rfl | ⟨1, _⟩ => rfl | ⟨2, _⟩ => rfl
    have a1 : idx_main_v0 (ridx_main_v2 (idx_main_v4 (idx_main_v6 (lidx_main_v13 i j))) h) = ix2 (Cert.Joint.topRow h) j :=
      funext fun a => by match a with | ⟨0, _⟩ => rfl | ⟨1, _⟩ => rfl
    rw [a0, a1]; rfl
  · have a0 : lidx_main_v3 (idx_main_v5 (idx_main_v7 (lidx_main_v13 i j))) h = ix3 (i 0) (i 2) h :=
      funext fun a => by match a with | ⟨0, _⟩ => rfl | ⟨1, _⟩ => rfl | ⟨2, _⟩ => rfl
    have a1 : idx_main_v1 (ridx_main_v3 (idx_main_v5 (idx_main_v7 (lidx_main_v13 i j))) h) = ix2 (Cert.Joint.lowRow h) j :=
      funext fun a => by match a with | ⟨0, _⟩ => rfl | ⟨1, _⟩ => rfl
    rw [a0, a1]; rfl

end Cert.ReferenceIdeal.RefValue

end
-- ==== Proof.lean ====
/-
  The joint network: a fused kernel against its plain reference, equal entry by entry on the extended reals.

  Both programs compute, for a batch b, an encoder frame t, a predictor position u and an output unit k,

      out (b, t, u, k) = ( ∑ j, max ( hf (b, t, j) + hg (b, u, j) + b1 j ) 0 · W2 (j, k) ) + b2 k,

  with hf = f · W1[0:1024] and hg = g · W1[1024:1344]. The reference forms hf and hg for all batches, broadcasts and
  adds them, and multiplies by W2. The kernel walks a grid of 8 batches by 8 tiles of 32 frames; at the first tile of a
  batch it stores hg of that batch (padded from 65 to 72 rows with zeros) in a scratch buffer that the later tiles of
  the batch read again, and at every tile it forms hf for the tile's 32 frames, adds the scratch rows and the bias,
  flattens the 32 × 72 hidden rows, multiplies by W2, adds b2 and keeps the 65 real rows of each 72.

  Nothing but the arrangement differs: changes of float format are the identity on the extended reals, a product into
  a zero accumulator is the plain sum over the contraction index, a flattened row 72 r + u is row (r, u), and the pad
  rows never reach the result. The one fact that needs an induction is that the scratch still holds the batch's hg at
  the later tiles: a first tile writes it, and tile t > 0 of a batch inherits it from tile t − 1 of the same batch.
  The three frames are the programs' runs; the idealization rewrote no operation.
-/
import proofs.«148343_j28862180229192_2_alg».proof.Defs
import proofs.«148343_j28862180229192_2_alg».proof.Proof.Gen.Kernel
import proofs.«148343_j28862180229192_2_alg».proof.Proof.Gen.Kernel.Skeleton
import proofs.«148343_j28862180229192_2_alg».proof.Proof.Gen.Kernel.Launch
import proofs.«148343_j28862180229192_2_alg».proof.Proof.Gen.Kernel.Points
import proofs.«148343_j28862180229192_2_alg».proof.Proof.Gen.Kernel.Frame
import proofs.«148343_j28862180229192_2_alg».proof.Proof.Gen.KernelIdeal
import proofs.«148343_j28862180229192_2_alg».proof.Proof.Gen.KernelIdeal.Skeleton
import proofs.«148343_j28862180229192_2_alg».proof.Proof.Gen.KernelIdeal.Launch
import proofs.«148343_j28862180229192_2_alg».proof.Proof.Gen.KernelIdeal.Points
import proofs.«148343_j28862180229192_2_alg».proof.Proof.Gen.KernelIdeal.Frame
import proofs.«148343_j28862180229192_2_alg».proof.Proof.Gen.ReferenceIdeal
import proofs.«148343_j28862180229192_2_alg».proof.Proof.Gen.Pre_finite_inputs
import proofs.«148343_j28862180229192_2_alg».proof.Proof.Gen.KernelIdeal.Value
import proofs.«148343_j28862180229192_2_alg».proof.Proof.Gen.ReferenceIdeal.Run
import proofs.«148343_j28862180229192_2_alg».proof.Proof.Gen.ReferenceIdeal.Read
import proofs.«148343_j28862180229192_2_alg».proof.Proof.KernelValue
import proofs.«148343_j28862180229192_2_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the six arguments, the kernel's result array and the reference's result are both
    the network's output array of those arguments. -/
theorem algebraic : Cert.algebraic_KernelIdeal_ReferenceIdeal := by
  intro m ρ m' ρ' _ hagree
  refine ⟨fun c => Cert.KernelIdeal.KernelValue.net m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
